-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x1 : Shape := ⟨2, ![1600000, 1]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x1 .f32) (main_arg2 : IVec S1600000 32) (main_arg3 : IVec S1600000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x1 : Shape := ⟨2, ![1600000, 1]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 29
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S100000x64, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .bf16⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x1, .f32⟩
  | .hbm, ⟨25, _⟩ => ⟨S1600000x1, .i32⟩
  | .hbm, ⟨26, _⟩ => ⟨S100000x1, .f32⟩
  | .hbm, ⟨27, _⟩ => ⟨S1x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000x1 : S_.BroadcastsInDim S100000x1 (![] : Fin 0 → Fin S100000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x1 : Shape := ⟨2, ![1600000, 1]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.Spec.lean ====
/-
  One attention-weighted message-passing layer, in two arrangements.

  Every edge `e` carries a weight `att e`, reads the features of its source node `srcRow e` and is summed into its
  destination node. With `h = feat · W + b` the layer's output at node `n`, feature `k` is

      edgeOut n k = ∑ over the edges e into n of (∑_d feat (srcRow e, d) · W (d, k) + b k) · att e ,

  the linear map applied edge by edge. The same number is obtained by first summing into each node, and only then
  applying the linear map:

      nodeOut n k = ∑_d (∑ over e into n of feat (srcRow e, d) · att e) · W (d, k) + (∑ over e into n of att e) · b k .

  The two agree because multiplication distributes over a finite sum and two finite sums commute — laws of the real
  numbers, which the extended reals lack at the infinities; so the statement is for entries that are all real.
-/
import Idealize.ShloMosaic.Lib.ValueIdx
import Idealize.ShloMosaic.PureOps.Ideal
import Idealize.ShloMosaic.Lib.IdealHost
import proofs.«148399_j8263517078054_2_alg».proof.Proof.LibRealEntries

noncomputable section

namespace Cert.Spec

open Idealize.ShloMosaic Idealize.ShloMosaic.ValueIdx Cert.LibRealEntries

/-! ## The law, over any finite set of edges and any finite feature type -/

/-- Summing into a node and then applying the linear map is applying it edge by edge and then summing, when every
    entry is a real number. -/
theorem node_eq_edge {ι κ : Type*} [Fintype κ] (S : Finset ι) (f : ι → κ → EReal) (a : ι → EReal) (w : κ → EReal)
    (β : EReal) (hf : ∀ e d, IsReal (f e d)) (ha : ∀ e, IsReal (a e)) (hw : ∀ d, IsReal (w d)) (hβ : IsReal β) :
    (∑ d : κ, (0 + ∑ e ∈ S, f e d * a e) * w d) + (0 + ∑ e ∈ S, a e) * β
      = 0 + ∑ e ∈ S, ((∑ d : κ, f e d * w d) + β) * a e := by
  choose f' hf' using hf
  choose a' ha' using ha
  choose w' hw' using hw
  obtain ⟨β', rfl⟩ := hβ
  simp only [hf', ha', hw', zero_add]
  simp only [← EReal.coe_mul, ← coe_sum, ← EReal.coe_add]
  refine congrArg (fun r : ℝ => (r : EReal)) ?_
  have h1 : ∑ d : κ, (∑ e ∈ S, f' e d * a' e) * w' d = ∑ e ∈ S, (∑ d : κ, f' e d * w' d) * a' e := by
    simp only [Finset.sum_mul]
    rw [Finset.sum_comm]
    exact Finset.sum_congr rfl fun e _ => Finset.sum_congr rfl fun d _ => by ring
  have h2 : (∑ e ∈ S, a' e) * β' = ∑ e ∈ S, β' * a' e := by
    rw [Finset.sum_mul]
    exact Finset.sum_congr rfl fun e _ => by ring
  rw [h1, h2, ← Finset.sum_add_distrib]
  exact Finset.sum_congr rfl fun e _ => by ring

/-! ## The layer over its arrays -/

/-- The feature row edge `e` reads: its source number, with the node count added when negative, then clamped into
    the node range. -/
def srcRow (src : (⟨1, ![1600000]⟩ : Shape).Idx → BitVec 32) (e : Fin 1600000) : Fin 100000 :=
  ⟨min (Scalar.select (IntOp.cmpi .slt (src (ix1 e)) 0#32) (IntOp.addi (src (ix1 e)) 100000#32) (src (ix1 e))).toInt.toNat
    (100000 - 1), Nat.lt_of_le_of_lt (Nat.min_le_right _ _) (by decide)⟩

/-- The edges summed into node `n`: those whose destination number, read signed, is `n` (any other destination
    number drops the edge). -/
def edgesTo (dst : (⟨1, ![1600000]⟩ : Shape).Idx → BitVec 32) (n : Fin 100000) : Finset (Fin 1600000) :=
  Finset.univ.filter fun e => (dst (ix1 e)).toInt = (n.val : Int)

/-- The value both sums start from: the word of `0.0`. -/
def zeroW : EReal := Ideal.ofBits .f32 0x00000000#32

theorem zeroW_eq : zeroW = 0 := Ideal.ofBits_zero_f32

section Layer

variable (feat : (⟨2, ![100000, 64]⟩ : Shape).Idx → EReal) (att : (⟨2, ![1600000, 1]⟩ : Shape).Idx → EReal)
  (src dst : (⟨1, ![1600000]⟩ : Shape).Idx → BitVec 32) (W : (⟨2, ![64, 64]⟩ : Shape).Idx → EReal)
  (b : (⟨1, ![64]⟩ : Shape).Idx → EReal)

/-- Summed into the node first, the linear map after. -/
def nodeOut (n : Fin 100000) (k : Fin 64) : EReal :=
  (∑ d : Fin 64, (zeroW + ∑ e ∈ edgesTo dst n, feat (ix2 (srcRow src e) d) * att (ix2 e (0 : Fin 1))) * W (ix2 d k))
    + (zeroW + ∑ e ∈ edgesTo dst n, att (ix2 e (0 : Fin 1))) * b (ix1 k)

/-- The linear map edge by edge, summed into the node after. -/
def edgeOut (n : Fin 100000) (k : Fin 64) : EReal :=
  zeroW + ∑ e ∈ edgesTo dst n, ((∑ d : Fin 64, feat (ix2 (srcRow src e) d) * W (ix2 d k)) + b (ix1 k)) * att (ix2 e (0 : Fin 1))

/-- The two arrangements agree when the float arrays hold real numbers. -/
theorem nodeOut_eq_edgeOut (hfeat : ∀ i, IsReal (feat i)) (hatt : ∀ i, IsReal (att i)) (hW : ∀ i, IsReal (W i))
    (hb : ∀ i, IsReal (b i)) (n : Fin 100000) (k : Fin 64) :
    nodeOut feat att src dst W b n k = edgeOut feat att src dst W b n k := by
  unfold nodeOut edgeOut
  rw [zeroW_eq]
  exact node_eq_edge (edgesTo dst n) (fun e d => feat (ix2 (srcRow src e) d)) (fun e => att (ix2 e (0 : Fin 1)))
    (fun d => W (ix2 d k)) (b (ix1 k)) (fun e d => hfeat _) (fun e => hatt _) (fun d => hW _) (hb _)

/-- The node-first arrangement as an array. -/
def nodeArr : (⟨2, ![100000, 64]⟩ : Shape).Idx → EReal :=
  fun i => nodeOut feat att src dst W b ⟨(i 0).val, idx2_lt0 i⟩ ⟨(i 1).val, idx2_lt1 i⟩

/-- The edge-first arrangement as an array. -/
def edgeArr : (⟨2, ![100000, 64]⟩ : Shape).Idx → EReal :=
  fun i => edgeOut feat att src dst W b ⟨(i 0).val, idx2_lt0 i⟩ ⟨(i 1).val, idx2_lt1 i⟩

theorem nodeArr_eq_edgeArr (hfeat : ∀ i, IsReal (feat i)) (hatt : ∀ i, IsReal (att i)) (hW : ∀ i, IsReal (W i))
    (hb : ∀ i, IsReal (b i)) : nodeArr feat att src dst W b = edgeArr feat att src dst W b :=
  funext fun _ => nodeOut_eq_edgeOut feat att src dst W b hfeat hatt hW hb _ _

end Layer

end Cert.Spec
-- ==== Proof.Finite.lean ====
/-
  Under the precondition every float entry is a real number.

  The precondition says, of each of the four float arrays, that the absolute value of every entry is below +∞. On the
  extended reals that excludes exactly the two infinities: an entry satisfying it is a real number.
-/
import proofs.«148399_j8263517078054_2_alg».proof.Pre_finite_inputs
import proofs.«148399_j8263517078054_2_alg».proof.Proof.Gen.Pre_finite_inputs
import Idealize.ShloMosaic.PureOps.Ideal
import Idealize.ShloMosaic.Lib.ReduceAll
import Idealize.ShloMosaic.Lib.Affine
import Idealize.ShloMosaic.Lib.ValueIdx
import proofs.«148399_j8263517078054_2_alg».proof.Proof.LibRealEntries

noncomputable section

namespace Cert.Pre_finite_inputs.Finite

open Cert.Pre_finite_inputs Idealize.ShloMosaic Idealize.ShloMosaic.ValueIdx Cert.LibRealEntries

instance : Subsingleton S_.Idx := ⟨fun a b => funext fun d => d.elim0⟩

/-- The word the entries are compared with is +∞. -/
theorem inf_word : Ideal.ofBits .f32 0x7F800000#32 = (⊤ : EReal) := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | top => simp [Ideal.cmp] at h
  | coe r => exact ⟨r, rfl⟩

/-- The precondition, all ones, makes every entry of the four float arrays a real number. -/
theorem real_of_pre (x0 : FVec Ideal S100000x64 .f32) (x1 : FVec Ideal S1600000x1 .f32) (x2 x3 : IVec S1600000 32)
    (x4 : FVec Ideal S64x64 .f32) (x5 : FVec Ideal S64 .f32)
    (h : fn (F := Ideal) x0 x1 x2 x3 x4 x5 = fun _ => 1#1) :
    (∀ i, IsReal (x0 i)) ∧ (∀ i, IsReal (x1 i)) ∧ (∀ i, IsReal (x4 i)) ∧ (∀ i, IsReal (x5 i)) := by
  have h0 := congrFun h ix0
  dsimp only [fn, fn_part1] at h0
  obtain ⟨h0, h5⟩ := IntOp.andi_eq_one.mp h0
  obtain ⟨h0, h4⟩ := IntOp.andi_eq_one.mp h0
  obtain ⟨h0, h1⟩ := IntOp.andi_eq_one.mp h0
  exact ⟨fun i => isReal_of_abs_lt _ (Host.reduce_andi_all _ _ _ _ _ h0 i),
    fun i => isReal_of_abs_lt _ (Host.reduce_andi_all _ _ _ _ _ h1 i),
    fun i => isReal_of_abs_lt _ (Host.reduce_andi_all _ _ _ _ _ h4 i),
    fun i => isReal_of_abs_lt _ (Host.reduce_andi_all _ _ _ _ _ h5 i)⟩

end Cert.Pre_finite_inputs.Finite

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«148399_j8263517078054_2_alg».proof.Proof.LibRowIndex
import proofs.«148399_j8263517078054_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.KernelHost.lean ====
/-
  What the kernel's host prefix hands to the region, as functions of the argument arrays and read at coordinates.

  Before the region the host gathers each edge's source row of `feat`, scales it by the edge's weight and sums the
  rows into the destination nodes (`aggOf`); it sums the weights themselves into the destination nodes
  (`attnSumOf`); and it lays the bias out as one row (`biasRowOf`). At node `n`:

      aggOf (n, d)     = 0 + ∑ over edges e into n of feat (srcRow e, d) · att e
      attnSumOf (n, 0) = 0 + ∑ over edges e into n of att e
      biasRowOf (0, k) = b k .

  The change of float format on the way into the gather is the identity on the extended reals.
-/
import proofs.«148399_j8263517078054_2_alg».proof.Proof.Gen.KernelIdeal.Frame
import Idealize.ShloMosaic.Lib.StableHlo.Run
import Idealize.ShloMosaic.Lib.ValueLayout
import proofs.«148399_j8263517078054_2_alg».proof.Proof.Spec
import proofs.«148399_j8263517078054_2_alg».proof.Proof.LibRowScatterSum
import proofs.«148399_j8263517078054_2_alg».proof.Proof.LibHostColumns

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx Idealize.ShloMosaic.RowIndex Cert.Spec

/-! ## The three staged arrays as functions of the arguments -/

/-- Each edge's source number with the node count added when it is negative, as a column. -/
def srcColumn (x2 : IVec S1600000 32) : IVec S1600000x1 32 :=
  broadcastInDim S1600000x1 ![0] bcast_S1600000_S1600000x1_0
    (select (cmpi .slt x2 (broadcastInDim S1600000 ![] bcast_S_S1600000 (constantI S_ 32 0#32)))
      (addi x2 (broadcastInDim S1600000 ![] bcast_S_S1600000 (constantI S_ 32 100000#32))) x2)

/-- The weighted source rows summed into the destination nodes. -/
def aggOf (x0 : FVec Ideal S100000x64 .f32) (x1 : FVec Ideal S1600000x1 .f32) (x2 x3 : IVec S1600000 32) :
    FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x3)
    (mulf (extf .f32 (Host.gather gather_S100000x64_S1600000x1_S1600000x64_1_0_n_n_0_1_164
        (truncf .bf16 x0 bitsLt_bf16_f32) (srcColumn x2)) bitsLt_bf16_f32)
      (broadcastInDim S1600000x64 ![0, 1] bcast_S1600000x1_S1600000x64_0_1 x1))

/-- The weights summed into the destination nodes. -/
def attnSumOf (x1 : FVec Ideal S1600000x1 .f32) (x3 : IVec S1600000 32) : FVec Ideal S100000x1 .f32 :=
  Host.scatterAdd scatter_S100000x1_S1600000x1_S1600000x1_1_0_0_1
    (broadcastInDim S100000x1 ![] bcast_S_S100000x1 (constant S_ .f32 0x00000000#32))
    (broadcastInDim S1600000x1 ![0] bcast_S1600000_S1600000x1_0 x3) x1

/-- The bias as one row. -/
def biasRowOf (x5 : FVec Ideal S64 .f32) : FVec Ideal S1x64 .f32 := shapeCast S1x64 x5 shapeCasts_S64_S1x64

variable (m : (ℓ : Loc nD τ sig) → Buf (Elt Ideal) ℓ)

set_option maxHeartbeats 2000000 in
/-- The region finds window 0's array at `aggOf` of the arguments. -/
theorem V_win0 (c : Dev nD) : (V m c (Pipeline.arrRef spec0 0) : S100000x64.Idx → EReal)
    = aggOf (m ((c : Thread nD τ).loc main_arg0)) (m ((c : Thread nD τ).loc main_arg1))
        (m ((c : Thread nD τ).loc main_arg2)) (m ((c : Thread nD τ).loc main_arg3)) := by
  dsimp only [Gen.V, Gen.hostOps0]
  after_results
  rfl

set_option maxHeartbeats 2000000 in
/-- The region finds window 1's array at `attnSumOf` of the arguments. -/
theorem V_win1 (c : Dev nD) : (V m c (Pipeline.arrRef spec0 1) : S100000x1.Idx → EReal)
    = attnSumOf (m ((c : Thread nD τ).loc main_arg1)) (m ((c : Thread nD τ).loc main_arg3)) := by
  dsimp only [Gen.V, Gen.hostOps0]
  after_results
  rfl

set_option maxHeartbeats 2000000 in
/-- The region finds window 3's array at the bias laid out as a row. -/
theorem V_win3 (c : Dev nD) : (V m c (Pipeline.arrRef spec0 3) : S1x64.Idx → EReal)
    = biasRowOf (m ((c : Thread nD τ).loc main_arg5)) := by
  dsimp only [Gen.V, Gen.hostOps0]
  after_results
  rfl

/-! ## The staged arrays at coordinates -/

/-- The printed dimension records are those of a row gather from `[100000, 64]` and of row-wise scatters into
    `[100000, 64]` and `[100000, 1]`, at a column of 1600000 row numbers. -/
theorem gather_eq : gather_S100000x64_S1600000x1_S1600000x64_1_0_n_n_0_1_164
    = rowsDims 100000 64 1600000 Facts₀.gather_S100000x64_S1600000x1_S1600000x64_1_0_n_n_0_1_164_wf := rfl

theorem scatter64_eq : scatter_S100000x64_S1600000x1_S1600000x64_1_0_0_1
    = rowScatter 100000 64 1600000 Facts₀.scatter_S100000x64_S1600000x1_S1600000x64_1_0_0_1_wf := rfl

theorem scatter1_eq : scatter_S100000x1_S1600000x1_S1600000x1_1_0_0_1
    = rowScatter 100000 1 1600000 Facts₀.scatter_S100000x1_S1600000x1_S1600000x1_1_0_0_1_wf := rfl

/-- The wrapped source number of edge `e`. -/
theorem srcColumn_apply (x2 : IVec S1600000 32) (e : Fin 1600000) :
    srcColumn x2 (atRow e)
      = Scalar.select (IntOp.cmpi .slt (x2 (ix1 e)) 0#32) (IntOp.addi (x2 (ix1 e)) 100000#32) (x2 (ix1 e)) := by
  unfold srcColumn
  exact (broadcastInDim_a_a1_apply _ bcast_S1600000_S1600000x1_0 e _).trans rfl

/-- The row the gather reads for edge `e` is the specification's `srcRow`. -/
theorem gatherRow_eq (x2 : IVec S1600000 32) (e : Fin 1600000) :
    (⟨min (srcColumn x2 (atRow e)).toInt.toNat (100000 - 1),
      Nat.lt_of_le_of_lt (Nat.min_le_right _ _) (by decide)⟩ : Fin 100000) = srcRow x2 e :=
  Fin.ext (by rw [srcColumn_apply]; rfl)

theorem aggOf_apply (x0 : FVec Ideal S100000x64 .f32) (x1 : FVec Ideal S1600000x1 .f32) (x2 x3 : IVec S1600000 32)
    (n : Fin 100000) (d : Fin 64) :
    aggOf x0 x1 x2 x3 (ix2 n d)
      = zeroW + ∑ e ∈ edgesTo x3 n, x0 (ix2 (srcRow x2 e) d) * x1 (ix2 e (0 : Fin 1)) := by
  unfold aggOf
  rw [scatter64_eq, scatterAdd_rows_apply, rowsTo_column]
  show zeroW + ∑ e ∈ edgesTo x3 n,
      (Host.gather gather_S100000x64_S1600000x1_S1600000x64_1_0_n_n_0_1_164 (truncf .bf16 x0 bitsLt_bf16_f32)
          (srcColumn x2) (ix2 e d) : EReal)
        * broadcastInDim S1600000x64 ![0, 1] bcast_S1600000x1_S1600000x64_0_1 x1 (ix2 e d) = _
  refine congrArg (zeroW + ·) (Finset.sum_congr rfl fun e _ => ?_)
  refine congrArg₂ (· * ·) ?_ (broadcastInDim_a1_ab_apply x1 bcast_S1600000x1_S1600000x64_0_1 e d)
  rw [gather_eq, gather_rows_apply 100000 64 1600000 (by decide), gatherRow_eq]
  rfl

theorem attnSumOf_apply (x1 : FVec Ideal S1600000x1 .f32) (x3 : IVec S1600000 32) (n : Fin 100000) :
    attnSumOf x1 x3 (ix2 n (0 : Fin 1)) = zeroW + ∑ e ∈ edgesTo x3 n, x1 (ix2 e (0 : Fin 1)) := by
  unfold attnSumOf
  rw [scatter1_eq, scatterAdd_rows_apply, rowsTo_column]
  rfl

theorem biasRowOf_apply (x5 : FVec Ideal S64 .f32) (k : Fin 64) : biasRowOf x5 (ix2 (0 : Fin 1) k) = x5 (ix1 k) := by
  unfold biasRowOf
  exact shapeCast_a_1a_apply x5 shapeCasts_S64_S1x64 0 k

end Cert.KernelIdeal.HostStages

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KernelPayload.lean ====
/-
  The kernel body's stored value at coordinates. For one block of 5000 nodes the body multiplies the block of
  aggregated features by the weight matrix and adds the block's summed attention, a column, times the bias, a row:

      payload (p, q) = ∑_d agg (p, d) · W (d, q) + attnSum (p, 0) · bias (0, q) .

  On the extended reals the change of float format on the way into the product is the identity, and the matrix
  product into a zero accumulator is the plain sum.
-/
import proofs.«148399_j8263517078054_2_alg».proof.Proof.Gen.KernelIdeal.Frame
import Idealize.ShloMosaic.Lib.ValueIdx
import Idealize.ShloMosaic.Lib.ValueLayout
import Idealize.ShloMosaic.Lib.Pipeline.Value
import proofs.«148399_j8263517078054_2_alg».proof.Proof.LibMatmul
import proofs.«148399_j8263517078054_2_alg».proof.Proof.LibColumns

noncomputable section

namespace Cert.KernelIdeal.Payload

open Cert.KernelIdeal Cert.KernelIdeal.Gen Idealize.ShloMosaic Idealize.ShloMosaic.ValueIdx

theorem pay_apply (v0 : Vec Ideal S5000x64 .f32) (v3 : Vec Ideal S64x64 .f32) (v6 : Vec Ideal S5000x1 .f32)
    (v8 : Vec Ideal S1x64 .f32) (p : Fin 5000) (q : Fin 64) :
    k0_pay1 v0 v3 v6 v8 (ix2 p q)
      = (∑ d : Fin 64, v0 (ix2 p d) * v3 (ix2 d q)) + v6 (ix2 p (0 : Fin 1)) * v8 (ix2 (0 : Fin 1) q) := by
  unfold k0_pay1
  show FloatOps.matmul (F := Ideal) dot_S5000x64_S64x64_S5000x64_1_0_0_1_n_n none
        (truncf .bf16 (shapeCast S5000x64 v0 shapeCasts_S5000x64_S5000x64) bitsLt_bf16_f32) (truncf .bf16 v3 bitsLt_bf16_f32)
        (constant (F := Ideal) S5000x64 .f32 0x00000000#32) (ix2 p q)
      + broadcastTo S5000x64 (shapeCast S5000x1 v6 shapeCasts_S5000x1_S5000x1) broadcasts_S5000x1_S5000x64 (ix2 p q)
        * broadcastTo S5000x64 (shapeCast S1x64 v8 shapeCasts_S1x64_S1x64) broadcasts_S1x64_S5000x64 (ix2 p q) = _
  rw [shapeCast_self, shapeCast_self, shapeCast_self]
  refine congrArg₂ (· + ·) ?_ (congrArg₂ (· * ·) (broadcastTo_a1_ab_apply v6 _ p q) (broadcastTo_1b_ab_apply v8 _ p q))
  exact matmul_zero_ix2 dot_S5000x64_S64x64_S5000x64_1_0_0_1_n_n rfl rfl rfl rfl rfl rfl none
    (truncf .bf16 v0 bitsLt_bf16_f32) (truncf .bf16 v3 bitsLt_bf16_f32) p q

theorem hz : (![0, 0] : Fin 2 → Nat) = fun _ => 0 := funext fun a => by fin_cases a <;> rfl

/-- What the body leaves in the output block, from the four input blocks: its one store covers the block, so it is
    the stored value. -/
theorem out_apply (x0 : Vec Ideal S5000x64 .f32) (x1 : Vec Ideal S5000x1 .f32) (x2 : Vec Ideal S64x64 .f32)
    (x3 : Vec Ideal S1x64 .f32) (p : Fin 5000) (q : Fin 64) :
    out0_4 x0 x1 x2 x3 (ix2 p q)
      = (∑ d : Fin 64, x0 (ix2 p d) * x2 (ix2 d q)) + x1 (ix2 p (0 : Fin 1)) * x3 (ix2 (0 : Fin 1) q) := by
  unfold out0_4
  rw [View.canon_unit_zero hz]
  simp only [View.ld_unit_zero (S := S5000x64) hz, View.ld_unit_zero (S := S64x64) hz,
    View.ld_unit_zero (S := S5000x1) hz, View.ld_unit_zero (S := S1x64) hz]
  exact pay_apply x0 x2 x1 x3 p q

end Cert.KernelIdeal.Payload

end
-- ==== Proof.KernelValue.lean ====
/-
  The kernel's result array is the node-first arrangement of the layer.

  The grid has 20 points; point `t` works on nodes `5000 t … 5000 t + 4999`. Its blocks of the aggregated features
  and of the summed attention are those rows of the arrays the host prefix prepared; the weight matrix and the bias row
  are whole at every point. So what point `t` writes back at `(p, q)` is

      ∑_d agg (5000 t + p, d) · W (d, q) + attnSum (5000 t + p, 0) · b q ,

  the specification's `nodeOut` at node `5000 t + p`; and the 20 blocks tile the result array (node `n` lies in the
  block of point `n / 5000`).
-/
import proofs.«148399_j8263517078054_2_alg».proof.Proof.Gen.KernelIdeal.Value
import proofs.«148399_j8263517078054_2_alg».proof.Proof.KernelHost
import proofs.«148399_j8263517078054_2_alg».proof.Proof.KernelPayload
import proofs.«148399_j8263517078054_2_alg».proof.Proof.Spec

noncomputable section

namespace Cert.KernelIdeal.NodeValue

open Cert.KernelIdeal Cert.KernelIdeal.Gen Cert.KernelIdeal.Value Cert.KernelIdeal.HostStages Cert.KernelIdeal.Payload
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The index maps over the grid: the three row-blocked windows are at block row `t`, the two whole windows at the
    origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks at coordinates -/

/-- Entry `(p, d)` of the aggregated-features block at point `t` is the aggregated array at node `5000 t + p`. -/
theorem aggBlock_apply (c : Dev nD) (t : Fin cfg0.N) (p : Fin 5000) (d : Fin 64) (n : Fin 100000)
    (hn : n.val = 5000 * t.val + p.val) :
    (iblk m c 0 t : Vec Ideal S5000x64 .f32) (ix2 p d)
      = aggOf (m ((c : Thread nD τ).loc main_arg0)) (m ((c : Thread nD τ).loc main_arg1)) (m ((c : Thread nD τ).loc main_arg2)) (m ((c : Thread nD τ).loc main_arg3)) (ix2 n d) := by
  obtain ⟨e0, e1, -⟩ := idx_facts t
  have hidx : ((cfg0.win 0).blk t).view.emb (ix2 p d) = ix2 n d := by
    funext a; apply Fin.ext
    match a with
    | ⟨0, _⟩ => show win0_0.index t (0 : Fin 2) * 5000 + 1 * p.val = n.val; omega
    | ⟨1, _⟩ => show win0_0.index t (1 : Fin 2) * 64 + 1 * d.val = d.val; omega
  unfold iblk
  rw [View.read_apply, V_win0, hidx]
  exact cast_eq _ _

/-- Entry `(p, 0)` of the summed-attention block at point `t` is the summed attention of node `5000 t + p`. -/
theorem attnBlock_apply (c : Dev nD) (t : Fin cfg0.N) (p : Fin 5000) (n : Fin 100000)
    (hn : n.val = 5000 * t.val + p.val) :
    (iblk m c 1 t : Vec Ideal S5000x1 .f32) (ix2 p (0 : Fin 1))
      = attnSumOf (m ((c : Thread nD τ).loc main_arg1)) (m ((c : Thread nD τ).loc main_arg3)) (ix2 n (0 : Fin 1)) := by
  obtain ⟨-, -, e2, e3, -⟩ := idx_facts t
  have hidx : ((cfg0.win 1).blk t).view.emb (ix2 p (0 : Fin 1)) = ix2 n (0 : Fin 1) := by
    funext a; apply Fin.ext
    match a with
    | ⟨0, _⟩ => show win0_1.index t (0 : Fin 2) * 5000 + 1 * p.val = n.val; omega
    | ⟨1, _⟩ => show win0_1.index t (1 : Fin 2) * 1 + 1 * 0 = 0; omega
  unfold iblk
  rw [View.read_apply, V_win1, hidx]
  exact cast_eq _ _

/-- The weight window is the whole weight matrix at every point. -/
theorem weightBlock_apply (c : Dev nD) (t : Fin cfg0.N) (d q : Fin 64) :
    (iblk m c 2 t : Vec Ideal S64x64 .f32) (ix2 d q) = (m ((c : Thread nD τ).loc main_arg4)) (ix2 d q) := by
  obtain ⟨-, -, -, -, e4, e5, -⟩ := idx_facts t
  have hidx : ((cfg0.win 2).blk t).view.emb (ix2 d q) = ix2 d q := by
    funext a; apply Fin.ext
    match a with
    | ⟨0, _⟩ => show win0_2.index t (0 : Fin 2) * 64 + 1 * d.val = d.val; omega
    | ⟨1, _⟩ => show win0_2.index t (1 : Fin 2) * 64 + 1 * q.val = q.val; omega
  unfold iblk
  rw [View.read_apply, hidx]
  exact congrFun (V_main_arg4 m c) (ix2 d q)

/-- The bias window is the whole bias row at every point. -/
theorem biasBlock_apply (c : Dev nD) (t : Fin cfg0.N) (q : Fin 64) :
    (iblk m c 3 t : Vec Ideal S1x64 .f32) (ix2 (0 : Fin 1) q) = biasRowOf (m ((c : Thread nD τ).loc main_arg5)) (ix2 (0 : Fin 1) q) := by
  obtain ⟨-, -, -, -, -, -, e6, e7, -⟩ := idx_facts t
  have hidx : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 64 + 1 * q.val = q.val; omega
  unfold iblk
  rw [View.read_apply, V_win3, hidx]
  exact cast_eq _ _

/-! ## What a point writes back -/

/-- One point, over any four blocks: if the blocks are the rows of node `n`'s aggregated features and summed
    attention, the whole weight matrix and the bias row, the body leaves `nodeOut` at node `n` in its output block. -/
theorem point_eq (x0 : FVec Ideal S100000x64 .f32) (x1 : FVec Ideal S1600000x1 .f32) (x2 x3 : IVec S1600000 32)
    (x4 : FVec Ideal S64x64 .f32) (x5 : FVec Ideal S64 .f32) (n : Fin 100000) (q : Fin 64)
    (b0 : Vec Ideal S5000x64 .f32) (b1 : Vec Ideal S5000x1 .f32) (b2 : Vec Ideal S64x64 .f32) (b3 : Vec Ideal S1x64 .f32)
    (p : Fin 5000)
    (hA : ∀ d : Fin 64, b0 (ix2 p d) = aggOf x0 x1 x2 x3 (ix2 n d))
    (hS : b1 (ix2 p (0 : Fin 1)) = attnSumOf x1 x3 (ix2 n (0 : Fin 1)))
    (hW : ∀ d : Fin 64, b2 (ix2 d q) = x4 (ix2 d q))
    (hB : b3 (ix2 (0 : Fin 1) q) = biasRowOf x5 (ix2 (0 : Fin 1) q)) :
    out0_4 b0 b1 b2 b3 (ix2 p q) = nodeOut x0 x1 x2 x3 x4 x5 n q := by
  rw [out_apply]
  unfold nodeOut
  simp only [hA, hS, hW, hB, aggOf_apply, attnSumOf_apply, biasRowOf_apply]

/-- The node-first array at the result index of `(p, q)` in point `t`'s block is `nodeOut` at node `5000 t + p`. -/
theorem nodeArr_block (c : Dev nD) (t : Fin cfg0.N) (p : Fin 5000) (q : Fin 64) (n : Fin 100000)
    (hn : n.val = 5000 * t.val + p.val) :
    nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 4).blk t).view.emb (ix2 p q))
      = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n q := by
  obtain ⟨-, -, -, -, -, -, -, -, e8, e9⟩ := idx_facts t
  unfold nodeArr
  refine congrArg₂ (nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show win0_4.index t (0 : Fin 2) * 5000 + 1 * p.val = n.val; omega
  · show win0_4.index t (1 : Fin 2) * 64 + 1 * q.val = q.val; omega

/-- What point `t` writes back is block `t` of the node-first array. -/
theorem flushed_eq (c : Dev nD) (t : Fin cfg0.N) :
    (dats m 0 c).flushed 4 t
      = ((cfg0.win 4).blk t).view.read (Elt Ideal) (nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed4]
  funext y
  obtain ⟨p, q, rfl⟩ : ∃ (p : Fin 5000) (q : Fin 64), y = ix2 p q := ⟨y 0, y 1, eq_ix2 y⟩
  have ht : t.val < 20 := Nat.lt_of_lt_of_eq t.isLt N_0
  have hnlt : 5000 * t.val + p.val < 100000 := by have := p.isLt; omega
  have hcut : ∀ X : Vec Ideal S5000x64 .f32, (cfg0.win 4).cut (grid0.coords t) X (ix2 p q) = X (ix2 p q) := fun _ => rfl
  rw [View.read_apply, nodeArr_block m c t p q ⟨5000 * t.val + p.val, hnlt⟩ rfl]
  exact (hcut (out0_4 (iblk m c 0 t) (iblk m c 1 t) (iblk m c 2 t) (iblk m c 3 t))).trans
    ((point_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨5000 * t.val + p.val, hnlt⟩ q
        (iblk m c 0 t) (iblk m c 1 t) (iblk m c 2 t) (iblk m c 3 t) p
        (fun d => aggBlock_apply m c t p d ⟨5000 * t.val + p.val, hnlt⟩ rfl)
        (attnBlock_apply m c t p ⟨5000 * t.val + p.val, hnlt⟩ rfl)
        (fun d => weightBlock_apply m c t d q)
        (biasBlock_apply m c t q)).trans (cast_eq _ _).symm)

/-! ## The blocks tile the result array -/

/-- An index is in point `t`'s block iff each coordinate is in the block's range on its axis. -/
theorem mem_blk (t : Fin cfg0.N) (i : S100000x64.Idx) :
    i ∈ ((cfg0.win 4).blk t).view.set
      ↔ ∀ a : Fin 2, win0_4.index t a * S5000x64.size a ≤ (i a).val
          ∧ (i a).val < win0_4.index t a * S5000x64.size a + S5000x64.size a := by
  show i ∈ ((View.whole main_v18).slice (win0_4.rect t)).set ↔ _
  rw [View.set_slice_whole, Rect.mem_set_unit]
  exact Iff.rfl

/-- Node `n` lies in the block of point `n / 5000`. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  have htl : (i 0).val / 5000 < cfg0.N := by rw [hN]; omega
  obtain ⟨-, -, -, -, -, -, -, -, e8, e9⟩ := idx_facts ⟨(i 0).val / 5000, htl⟩
  refine ⟨⟨(i 0).val / 5000, htl⟩, flush0_4 _, ?_⟩
  rw [mem_blk]
  intro a
  match a with
  | ⟨0, _⟩ =>
    show win0_4.index ⟨(i 0).val / 5000, htl⟩ (0 : Fin 2) * 5000 ≤ (i 0).val
      ∧ (i 0).val < win0_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win0_4.index ⟨(i 0).val / 5000, htl⟩ (1 : Fin 2) * 64 ≤ (i 1).val
      ∧ (i 1).val < win0_4.index ⟨(i 0).val / 5000, htl⟩ (1 : Fin 2) * 64 + 64
    rw [e9]
    omega

/-- The result array ends holding the node-first arrangement. -/
theorem final (c : Dev nD) :
    (dats m 0 c).arrAt 4 cfg0.N = nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 4 _ (fun t _ => flushed_eq m c t) cover

/-- The kernel's run: the result at the node-first arrangement of the arguments, the arguments unchanged. -/
theorem run : θ_run defs (onTc (τ := τ) (main (F := Ideal))) ⟨m, fun _ => 0, ρ⟩ fun r => ∀ c : Dev nD,
      r.2.mem ((c : Thread nD τ).loc main_v18) = nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.NodeValue

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.RefValue.lean ====
/-
  The reference's result is the edge-first arrangement of the layer.

  The reference applies the linear map at every node (`h = feat · W + b`), gathers each edge's source row of `h`,
  scales it by the edge's weight and sums the rows into the destination nodes. Read at node `n`, feature `k`:

      0 + ∑ over edges e into n of (∑_d feat (srcRow e, d) · W (d, k) + b k) · att e ,

  the specification's `edgeOut`.
-/
import proofs.«148399_j8263517078054_2_alg».proof.Proof.Gen.ReferenceIdeal.Read
import proofs.«148399_j8263517078054_2_alg».proof.Proof.Spec
import proofs.«148399_j8263517078054_2_alg».proof.Proof.LibRowScatterSum
import proofs.«148399_j8263517078054_2_alg».proof.Proof.LibMatmul
import proofs.«148399_j8263517078054_2_alg».proof.Proof.LibHostRows
import proofs.«148399_j8263517078054_2_alg».proof.Proof.LibHostColumns

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.RowIndex Cert.Spec

variable (x0 : FVec Ideal S100000x64 .f32) (x1 : FVec Ideal S1600000x1 .f32) (x2 x3 : IVec S1600000 32)
  (x4 : FVec Ideal S64x64 .f32) (x5 : FVec Ideal S64 .f32)

/-- The printed scatter dimensions are those of a row-wise scatter into `[100000, 64]` at a column of 1600000 rows. -/
theorem scatter_eq : scatter_S100000x64_S1600000x1_S1600000x64_1_0_0_1
    = rowScatter 100000 64 1600000 Facts₀.scatter_S100000x64_S1600000x1_S1600000x64_1_0_0_1_wf := rfl

/-- The wrapped source number of edge `e`. -/
theorem srcColumn_apply (e : Fin 1600000) :
    val_main_v9 (F := Ideal) x2 (atRow e)
      = Scalar.select (IntOp.cmpi .slt (x2 (ix1 e)) 0#32) (IntOp.addi (x2 (ix1 e)) 100000#32) (x2 (ix1 e)) := by
  unfold val_main_v9
  exact (broadcastInDim_a_a1_apply _ bcast_S1600000_S1600000x1_0 e _).trans rfl

/-- The row the gather reads for edge `e` is the specification's `srcRow`. -/
theorem gatherRow_eq (e : Fin 1600000) :
    (⟨min (val_main_v9 (F := Ideal) x2 (atRow e)).toInt.toNat (100000 - 1),
      Nat.lt_of_le_of_lt (Nat.min_le_right _ _) (by decide)⟩ : Fin 100000) = srcRow x2 e :=
  Fin.ext (by rw [srcColumn_apply]; rfl)

/-- The node-level linear map at `(r, k)`. -/
theorem linear_apply (r : Fin 100000) (k : Fin 64) :
    val_main_v3 (F := Ideal) x0 x4 x5 (ix2 r k) = (∑ d : Fin 64, x0 (ix2 r d) * x4 (ix2 d k)) + x5 (ix1 k) := by
  show val_main_v0 (F := Ideal) x0 x4 (ix2 r k) + val_main_v2 (F := Ideal) x5 (ix2 r k) = _
  refine congrArg₂ (· + ·) ?_ ?_
  · unfold val_main_v0
    exact dotGeneral_ix2 dot_S100000x64_S64x64_S100000x64_1_0_0_1_n_n rfl rfl rfl rfl rfl rfl none .single x0 x4 r k
  · unfold val_main_v2 val_main_v1
    exact broadcastInDim_row_apply x5 bcast_S64_S1x64_1 bcast_S1x64_S100000x64_0_1 r k

/-- The scaled message of edge `e` at feature `k`. -/
theorem message_apply (e : Fin 1600000) (k : Fin 64) :
    val_main_v12 (F := Ideal) x0 x1 x2 x4 x5 (ix2 e k)
      = ((∑ d : Fin 64, x0 (ix2 (srcRow x2 e) d) * x4 (ix2 d k)) + x5 (ix1 k)) * x1 (ix2 e (0 : Fin 1)) := by
  show val_main_v10 (F := Ideal) x0 x2 x4 x5 (ix2 e k) * val_main_v11 (F := Ideal) x1 (ix2 e k) = _
  refine congrArg₂ (· * ·) ?_ ?_
  · unfold val_main_v10
    refine (gather_rows_apply 100000 64 1600000 (by decide) _ _ (val_main_v9 (F := Ideal) x2) e k).trans ?_
    rw [gatherRow_eq]
    exact linear_apply x0 x4 x5 (srcRow x2 e) k
  · unfold val_main_v11
    exact broadcastInDim_a1_ab_apply x1 bcast_S1600000x1_S1600000x64_0_1 e k

/-- The reference's result array is the edge-first arrangement. -/
theorem result_eq : val_main_v15 (F := Ideal) x0 x1 x2 x3 x4 x5 = edgeArr x0 x1 x2 x3 x4 x5 := by
  funext i
  obtain ⟨n, k, rfl⟩ : ∃ (n : Fin 100000) (k : Fin 64), i = ix2 n k := ⟨i 0, i 1, eq_ix2 i⟩
  show val_main_v15 (F := Ideal) x0 x1 x2 x3 x4 x5 (ix2 n k) = edgeOut x0 x1 x2 x3 x4 x5 n k
  unfold val_main_v15 edgeOut
  rw [scatter_eq, scatterAdd_rows_apply]
  unfold val_main_v14
  rw [rowsTo_column]
  show zeroW + ∑ e ∈ edgesTo x3 n, val_main_v12 (F := Ideal) x0 x1 x2 x4 x5 (ix2 e k) = _
  exact congrArg (zeroW + ·) (Finset.sum_congr rfl fun e _ => message_apply x0 x1 x2 x4 x5 e k)

end Cert.ReferenceIdeal.RefValue

end
-- ==== Proof.lean ====
/-
  One attention-weighted message-passing layer over a graph of 100000 nodes and 1600000 edges: the kernel against its
  reference, on the extended reals.

  The reference applies the linear map `h = feat · W + b` at every node, gathers each edge's source row of `h`, scales it
  by the edge's weight and sums the rows into the destination nodes. The kernel first sums, into each destination node,
  the weighted source rows of `feat` itself and the weights, and then applies the linear map once per node, the bias
  scaled by the node's summed weight: `agg · W + attnSum · b`, block by block of 5000 nodes.

  Both read the same source row for an edge (a negative source number gets the node count added, then the number is
  clamped into range) and drop the same edges (those whose destination number is not a node). So at node `n`, feature
  `k` the two results are

      ∑_d (∑_e feat (src e, d) · att e) · W (d, k) + (∑_e att e) · b k     and     ∑_e (∑_d feat (src e, d) · W (d, k) + b k) · att e

  over the edges `e` into `n`: equal by distributivity and by exchanging two finite sums. Those laws fail at the
  infinities of the extended reals, so the proof uses the precondition: every float entry is finite, hence a real
  number. The kernel's changes of float format are the identity on the extended reals, and nothing was rewritten
  when the kernel was idealized, so that conjunct is trivial.
-/
import proofs.«148399_j8263517078054_2_alg».proof.Defs
import proofs.«148399_j8263517078054_2_alg».proof.Proof.Gen.Kernel
import proofs.«148399_j8263517078054_2_alg».proof.Proof.Gen.Kernel.Skeleton
import proofs.«148399_j8263517078054_2_alg».proof.Proof.Gen.Kernel.Launch
import proofs.«148399_j8263517078054_2_alg».proof.Proof.Gen.Kernel.Points
import proofs.«148399_j8263517078054_2_alg».proof.Proof.Gen.Kernel.Frame
import proofs.«148399_j8263517078054_2_alg».proof.Proof.Gen.KernelIdeal
import proofs.«148399_j8263517078054_2_alg».proof.Proof.Gen.KernelIdeal.Skeleton
import proofs.«148399_j8263517078054_2_alg».proof.Proof.Gen.KernelIdeal.Launch
import proofs.«148399_j8263517078054_2_alg».proof.Proof.Gen.KernelIdeal.Points
import proofs.«148399_j8263517078054_2_alg».proof.Proof.Gen.KernelIdeal.Frame
import proofs.«148399_j8263517078054_2_alg».proof.Proof.Gen.ReferenceIdeal
import proofs.«148399_j8263517078054_2_alg».proof.Proof.Gen.Pre_finite_inputs
import proofs.«148399_j8263517078054_2_alg».proof.Proof.Gen.KernelIdeal.Value
import proofs.«148399_j8263517078054_2_alg».proof.Proof.Gen.ReferenceIdeal.Run
import proofs.«148399_j8263517078054_2_alg».proof.Proof.Gen.ReferenceIdeal.Read
import proofs.«148399_j8263517078054_2_alg».proof.Proof.Spec
import proofs.«148399_j8263517078054_2_alg».proof.Proof.Finite
import proofs.«148399_j8263517078054_2_alg».proof.Proof.KernelValue
import proofs.«148399_j8263517078054_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- The kernel's result array ends at the node-first arrangement of the layer and the reference's at the edge-first
    arrangement, of arguments that agree; the float arguments hold real numbers, where the two arrangements are equal. -/
theorem algebraic : Cert.algebraic_KernelIdeal_ReferenceIdeal := by
  intro m ρ m' ρ' hpre hagree
  refine ⟨fun c => Cert.Spec.nodeArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  obtain ⟨r0, r1, r4, r5⟩ := Cert.Pre_finite_inputs.Finite.real_of_pre _ _ _ _ _ _ (hpre c)
  rw [Cert.ReferenceIdeal.Read.val_main_v15_eq, Cert.ReferenceIdeal.RefValue.result_eq, e0, e1, e2, e3, e4, e5]
  exact (Cert.Spec.nodeArr_eq_edgeArr _ _ _ _ _ _ r0 r1 r4 r5).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
